-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel

variable [Facts]

def fn {F : FTy → Type} [FloatOps F] (main_arg0 : FVec F S4194304x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  main_v3
-- ==== Kernel.lean ====
abbrev S4194304x3 : Shape := ⟨2, ![4194304, 3]⟩
abbrev S3x4194304 : Shape := ⟨2, ![3, 4194304]⟩
abbrev S524288x128 : Shape := ⟨2, ![524288, 128]⟩
abbrev S3x65536 : Shape := ⟨2, ![3, 65536]⟩
abbrev S8192x128 : Shape := ⟨2, ![8192, 128]⟩
abbrev S1x65536 : Shape := ⟨2, ![1, 65536]⟩
abbrev S65536 : Shape := ⟨1, ![65536]⟩
abbrev S16x65536 : Shape := ⟨2, ![16, 65536]⟩
abbrev S16x8192x8 : Shape := ⟨3, ![16, 8192, 8]⟩
abbrev S8192x8x16 : Shape := ⟨3, ![8192, 8, 16]⟩
abbrev S4194304x16 : Shape := ⟨2, ![4194304, 16]⟩

abbrev nBuf : Space → Nat
  | .hbm => 4
  | .vmem => 4
  | .smem => 0
  | _ => 0

abbrev bufTy : (tb : Table) → Fin (tcTables nBuf tb) → BufTy
  | .hbm, ⟨0, _⟩ => ⟨S4194304x3, .f32⟩
  | .hbm, ⟨1, _⟩ => ⟨S3x4194304, .f32⟩
  | .hbm, ⟨2, _⟩ => ⟨S524288x128, .f32⟩
  | .hbm, ⟨3, _⟩ => ⟨S4194304x16, .f32⟩
  | .local _ .vmem, ⟨0, _⟩ => ⟨S3x65536, .f32⟩
  | .local _ .vmem, ⟨1, _⟩ => ⟨S3x65536, .f32⟩
  | .local _ .vmem, ⟨2, _⟩ => ⟨S8192x128, .f32⟩
  | .local _ .vmem, ⟨3, _⟩ => ⟨S8192x128, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S4194304x3_S3x4194304_1_0 : S4194304x3.Transposes [1, 0] S3x4194304
  inb_S3x65536_S1x65536_0_0 : ∀ a, (![0, 0] : Fin 2 → Nat) a + S1x65536.size a ≤ S3x65536.size a
  h_S1x65536 : 0 < S1x65536.numel
  shapeCasts_S1x65536_S65536 : S1x65536.ShapeCasts S65536
  inb_S3x65536_S1x65536_1_0 : ∀ a, (![1, 0] : Fin 2 → Nat) a + S1x65536.size a ≤ S3x65536.size a
  inb_S3x65536_S1x65536_2_0 : ∀ a, (![2, 0] : Fin 2 → Nat) a + S1x65536.size a ≤ S3x65536.size a
  shapeCasts_S65536_S1x65536 : S65536.ShapeCasts S1x65536
  concatenates_S1x65536_S1x65536_S1x65536_S1x65536_S1x65536_S1x65536_S1x65536_S1x65536_S1x65536_S1x65536_S1x65536_S1x65536_S1x65536_S1x65536_S1x65536_S1x65536_S16x65536_d0 : Shape.Concatenates [S1x65536, S1x65536, S1x65536, S1x65536, S1x65536, S1x65536, S1x65536, S1x65536, S1x65536, S1x65536, S1x65536, S1x65536, S1x65536, S1x65536, S1x65536, S1x65536] S16x65536 0
  shapeCasts_S16x65536_S16x8192x8 : S16x65536.ShapeCasts S16x8192x8
  transposes_S16x8192x8_p1_2_0_S8192x8x16 : S16x8192x8.Transposes [1, 2, 0] S8192x8x16
  shapeCasts_S8192x8x16_S8192x128 : S8192x8x16.ShapeCasts S8192x128
  inb_S8192x128_S8192x128_0_0 : ∀ a, (![0, 0] : Fin 2 → Nat) a + S8192x128.size a ≤ S8192x128.size a
  h_S8192x128 : 0 < S8192x128.numel
  shapeCasts_S524288x128_S4194304x16 : S524288x128.ShapeCasts S4194304x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x4194304.size a
  hwx0_0 : ∀ i : grid0.Coords, EltTy.bits .f32 = 32 ∨ (Rect.block (s := S3x4194304) S3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)

variable [Facts₀]

abbrev win0_0 : Pipeline.Window sig grid0 :=
  Pipeline.Window.ofSpec (Memref.whole main_v0) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S4194304x1 : Shape := ⟨2, ![4194304, 1]⟩
abbrev S4194304 : Shape := ⟨1, ![4194304]⟩
abbrev S_ : Shape := ⟨0, ![]⟩
abbrev S4194304x16 : Shape := ⟨2, ![4194304, 16]⟩

abbrev nBuf : Space → Nat
  | .hbm => 116
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S4194304x1, .f32⟩
  | .hbm, ⟨2, _⟩ => ⟨S4194304, .f32⟩
  | .hbm, ⟨3, _⟩ => ⟨S4194304x1, .f32⟩
  | .hbm, ⟨4, _⟩ => ⟨S4194304, .f32⟩
  | .hbm, ⟨5, _⟩ => ⟨S4194304x1, .f32⟩
  | .hbm, ⟨6, _⟩ => ⟨S4194304, .f32⟩
  | .hbm, ⟨7, _⟩ => ⟨S4194304, .f32⟩
  | .hbm, ⟨8, _⟩ => ⟨S4194304, .f32⟩
  | .hbm, ⟨9, _⟩ => ⟨S4194304, .f32⟩
  | .hbm, ⟨10, _⟩ => ⟨S4194304, .f32⟩
  | .hbm, ⟨11, _⟩ => ⟨S4194304, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S_, .f32⟩
  | .hbm, ⟨16, _⟩ => ⟨S4194304, .f32⟩
  | .hbm, ⟨17, _⟩ => ⟨S4194304, .f32⟩
  | .hbm, ⟨18, _⟩ => ⟨S_, .f32⟩
  | .hbm, ⟨19, _⟩ => ⟨S4194304, .f32⟩
  | .hbm, ⟨20, _⟩ => ⟨S4194304, .f32⟩
  | .hbm, ⟨21, _⟩ => ⟨S_, .f32⟩
  | .hbm, ⟨22, _⟩ => ⟨S4194304, .f32⟩
  | .hbm, ⟨23, _⟩ => ⟨S4194304, .f32⟩
  | .hbm, ⟨24, _⟩ => ⟨S_, .f32⟩
  | .hbm, ⟨25, _⟩ => ⟨S4194304, .f32⟩
  | .hbm, ⟨26, _⟩ => ⟨S4194304, .f32⟩
  | .hbm, ⟨27, _⟩ => ⟨S_, .f32⟩
  | .hbm, ⟨28, _⟩ => ⟨S4194304, .f32⟩
  | .hbm, ⟨29, _⟩ => ⟨S4194304, .f32⟩
  | .hbm, ⟨30, _⟩ => ⟨S_, .f32⟩
  | .hbm, ⟨31, _⟩ => ⟨S4194304, .f32⟩
  | .hbm, ⟨32, _⟩ => ⟨S4194304, .f32⟩
  | .hbm, ⟨33, _⟩ => ⟨S_, .f32⟩
  | .hbm, ⟨34, _⟩ => ⟨S4194304, .f32⟩
  | .hbm, ⟨35, _⟩ => ⟨S4194304, .f32⟩
  | .hbm, ⟨36, _⟩ => ⟨S_, .f32⟩
  | .hbm, ⟨37, _⟩ => ⟨S4194304, .f32⟩
  | .hbm, ⟨38, _⟩ => ⟨S4194304, .f32⟩
  | .hbm, ⟨39, _⟩ => ⟨S4194304, .f32⟩
  | .hbm, ⟨40, _⟩ => ⟨S_, .f32⟩
  | .hbm, ⟨41, _⟩ => ⟨S4194304, .f32⟩
  | .hbm, ⟨42, _⟩ => ⟨S4194304, .f32⟩
  | .hbm, ⟨43, _⟩ => ⟨S_, .f32⟩
  | .hbm, ⟨44, _⟩ => ⟨S4194304, .f32⟩
  | .hbm, ⟨45, _⟩ => ⟨S4194304, .f32⟩
  | .hbm, ⟨46, _⟩ => ⟨S_, .f32⟩
  | .hbm, ⟨47, _⟩ => ⟨S4194304, .f32⟩
  | .hbm, ⟨48, _⟩ => ⟨S4194304, .f32⟩
  | .hbm, ⟨49, _⟩ => ⟨S4194304, .f32⟩
  | .hbm, ⟨50, _⟩ => ⟨S4194304, .f32⟩
  | .hbm, ⟨51, _⟩ => ⟨S_, .f32⟩
  | .hbm, ⟨52, _⟩ => ⟨S4194304, .f32⟩
  | .hbm, ⟨53, _⟩ => ⟨S4194304, .f32⟩
  | .hbm, ⟨54, _⟩ => ⟨S4194304, .f32⟩
  | .hbm, ⟨55, _⟩ => ⟨S_, .f32⟩
  | .hbm, ⟨56, _⟩ => ⟨S4194304, .f32⟩
  | .hbm, ⟨57, _⟩ => ⟨S4194304, .f32⟩
  | .hbm, ⟨58, _⟩ => ⟨S_, .f32⟩
  | .hbm, ⟨59, _⟩ => ⟨S4194304, .f32⟩
  | .hbm, ⟨60, _⟩ => ⟨S4194304, .f32⟩
  | .hbm, ⟨61, _⟩ => ⟨S_, .f32⟩
  | .hbm, ⟨62, _⟩ => ⟨S4194304, .f32⟩
  | .hbm, ⟨63, _⟩ => ⟨S4194304, .f32⟩
  | .hbm, ⟨64, _⟩ => ⟨S4194304, .f32⟩
  | .hbm, ⟨65, _⟩ => ⟨S_, .f32⟩
  | .hbm, ⟨66, _⟩ => ⟨S4194304, .f32⟩
  | .hbm, ⟨67, _⟩ => ⟨S4194304, .f32⟩
  | .hbm, ⟨68, _⟩ => ⟨S_, .f32⟩
  | .hbm, ⟨69, _⟩ => ⟨S4194304, .f32⟩
  | .hbm, ⟨70, _⟩ => ⟨S4194304, .f32⟩
  | .hbm, ⟨71, _⟩ => ⟨S_, .f32⟩
  | .hbm, ⟨72, _⟩ => ⟨S4194304, .f32⟩
  | .hbm, ⟨73, _⟩ => ⟨S4194304, .f32⟩
  | .hbm, ⟨74, _⟩ => ⟨S4194304, .f32⟩
  | .hbm, ⟨75, _⟩ => ⟨S_, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S_, .f32⟩
  | .hbm, ⟨82, _⟩ => ⟨S4194304, .f32⟩
  | .hbm, ⟨83, _⟩ => ⟨S4194304, .f32⟩
  | .hbm, ⟨84, _⟩ => ⟨S4194304, .f32⟩
  | .hbm, ⟨85, _⟩ => ⟨S_, .f32⟩
  | .hbm, ⟨86, _⟩ => ⟨S4194304, .f32⟩
  | .hbm, ⟨87, _⟩ => ⟨S4194304, .f32⟩
  | .hbm, ⟨88, _⟩ => ⟨S4194304, .f32⟩
  | .hbm, ⟨89, _⟩ => ⟨S4194304, .f32⟩
  | .hbm, ⟨90, _⟩ => ⟨S_, .f32⟩
  | .hbm, ⟨91, _⟩ => ⟨S4194304, .f32⟩
  | .hbm, ⟨92, _⟩ => ⟨S4194304, .f32⟩
  | .hbm, ⟨93, _⟩ => ⟨S4194304, .f32⟩
  | .hbm, ⟨94, _⟩ => ⟨S_, .f32⟩
  | .hbm, ⟨95, _⟩ => ⟨S4194304, .f32⟩
  | .hbm, ⟨96, _⟩ => ⟨S4194304, .f32⟩
  | .hbm, ⟨97, _⟩ => ⟨S4194304, .f32⟩
  | .hbm, ⟨98, _⟩ => ⟨S4194304, .f32⟩
  | .hbm, ⟨99, _⟩ => ⟨S4194304x1, .f32⟩
  | .hbm, ⟨100, _⟩ => ⟨S4194304x1, .f32⟩
  | .hbm, ⟨101, _⟩ => ⟨S4194304x1, .f32⟩
  | .hbm, ⟨102, _⟩ => ⟨S4194304x1, .f32⟩
  | .hbm, ⟨103, _⟩ => ⟨S4194304x1, .f32⟩
  | .hbm, ⟨104, _⟩ => ⟨S4194304x1, .f32⟩
  | .hbm, ⟨105, _⟩ => ⟨S4194304x1, .f32⟩
  | .hbm, ⟨106, _⟩ => ⟨S4194304x1, .f32⟩
  | .hbm, ⟨107, _⟩ => ⟨S4194304x1, .f32⟩
  | .hbm, ⟨108, _⟩ => ⟨S4194304x1, .f32⟩
  | .hbm, ⟨109, _⟩ => ⟨S4194304x1, .f32⟩
  | .hbm, ⟨110, _⟩ => ⟨S4194304x1, .f32⟩
  | .hbm, ⟨111, _⟩ => ⟨S4194304x1, .f32⟩
  | .hbm, ⟨112, _⟩ => ⟨S4194304x1, .f32⟩
  | .hbm, ⟨113, _⟩ => ⟨S4194304x1, .f32⟩
  | .hbm, ⟨114, _⟩ => ⟨S4194304x1, .f32⟩
  | .hbm, ⟨115, _⟩ => ⟨S4194304x16, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_8 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_cst_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_12 : Ref sig .tc := ⟨.hbm, 55, rfl⟩
abbrev main_v41 : Ref sig .tc := ⟨.hbm, 56, rfl⟩
abbrev main_v42 : Ref sig .tc := ⟨.hbm, 57, rfl⟩
abbrev main_cst_13 : Ref sig .tc := ⟨.hbm, 58, rfl⟩
abbrev main_v43 : Ref sig .tc := ⟨.hbm, 59, rfl⟩
abbrev main_v44 : Ref sig .tc := ⟨.hbm, 60, rfl⟩
abbrev main_cst_14 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_15 : Ref sig .tc := ⟨.hbm, 65, rfl⟩
abbrev main_v48 : Ref sig .tc := ⟨.hbm, 66, rfl⟩
abbrev main_v49 : Ref sig .tc := ⟨.hbm, 67, rfl⟩
abbrev main_cst_16 : Ref sig .tc := ⟨.hbm, 68, rfl⟩
abbrev main_v50 : Ref sig .tc := ⟨.hbm, 69, rfl⟩
abbrev main_v51 : Ref sig .tc := ⟨.hbm, 70, rfl⟩
abbrev main_cst_17 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_18 : Ref sig .tc := ⟨.hbm, 75, rfl⟩
abbrev main_v55 : Ref sig .tc := ⟨.hbm, 76, rfl⟩
abbrev main_v56 : Ref sig .tc := ⟨.hbm, 77, rfl⟩
abbrev main_cst_19 : Ref sig .tc := ⟨.hbm, 78, rfl⟩
abbrev main_v57 : Ref sig .tc := ⟨.hbm, 79, rfl⟩
abbrev main_v58 : Ref sig .tc := ⟨.hbm, 80, rfl⟩
abbrev main_cst_20 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_21 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_22 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_23 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]

class Facts₀ : Prop where
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x1_S4194304x1_S4194304x1_S4194304x1_S4194304x1_S4194304x1_S4194304x1_S4194304x1_S4194304x1_S4194304x1_S4194304x1_S4194304x1_S4194304x1_S4194304x16_d1 : Shape.Concatenates [S4194304x1, S4194304x1, S4194304x1, S4194304x1, S4194304x1, S4194304x1, S4194304x1, S4194304x1, S4194304x1, S4194304x1, S4194304x1, S4194304x1, S4194304x1, S4194304x1, S4194304x1, S4194304x1] S4194304x16 1

variable [Facts₀]

class Facts : Prop extends Facts₀ where

variable [Facts]
-- ==== Proof.Basis.lean ====
/-
  The sixteen real spherical harmonics of degree below four, as polynomials of a direction's three
  coordinates over the extended reals, with the single-precision coefficient words read as the
  numbers they denote.  For a direction (x, y, z) the values are, in order,

      c₀ ;  −c₁·y ;  c₁·z ;  −c₁·x ;
      c₂·(x·y) ;  −c₂·(y·z) ;  c₃·z² − c₄ ;  −c₂·(x·z) ;  c₅·(x² − y²) ;
      (c₆·y)·(−3·x² + y²) ;  (c₇·(x·y))·z ;  (c₈·y)·(1 − 5·z²) ;  (c₉·z)·(5·z² − 3) ;
      (c₈·x)·(1 − 5·z²) ;  (c₁₀·z)·(x² − y²) ;  (c₆·x)·(−x² + 3·y²),

  each product and sum grouped exactly as written, so that no law of the extended reals beyond
  `0 − a = −a` is needed to recognise either program's arithmetic in them.  Nothing here mentions a
  program: the file fixes the function both are compared with.
-/
import Idealize.ShloMosaic.PureOps.Ideal
import Idealize.ShloMosaic.PureOps.Ideal.Laws
import Idealize.ShloMosaic.Lib.ValueIdx
import Idealize.ShloMosaic.Lib.Pipeline.Value

noncomputable section

namespace Cert.Basis

open Idealize.ShloMosaic Idealize.ShloMosaic.ValueIdx

/-- A single-precision word as the extended real it denotes. -/
abbrev num (b : BitVec 32) : EReal := Ideal.ofBits .f32 b

/-- Harmonic `k` of the direction `(x, y, z)`. -/
def harm (k : Fin 16) (x y z : EReal) : EReal :=
  match k with
  | ⟨0, _⟩ => num 0x3E906EBB#32
  | ⟨1, _⟩ => num 0xBEFA2A1C#32 * y
  | ⟨2, _⟩ => num 0x3EFA2A1C#32 * z
  | ⟨3, _⟩ => num 0xBEFA2A1C#32 * x
  | ⟨4, _⟩ => num 0x3F8BD8A1#32 * (x * y)
  | ⟨5, _⟩ => num 0xBF8BD8A1#32 * (y * z)
  | ⟨6, _⟩ => num 0x3F723881#32 * (z * z) - num 0x3EA17B01#32
  | ⟨7, _⟩ => num 0xBF8BD8A1#32 * (x * z)
  | ⟨8, _⟩ => num 0x3F0BD8A1#32 * (x * x - y * y)
  | ⟨9, _⟩ => (num 0x3F170D19#32 * y) * (num 0xC0400000#32 * (x * x) + y * y)
  | ⟨10, _⟩ => (num 0x4038FFC7#32 * (x * y)) * z
  | ⟨11, _⟩ => (num 0x3EEA01E8#32 * y) * (num 0x3F800000#32 - num 0x40A00000#32 * (z * z))
  | ⟨12, _⟩ => (num 0x3EBF10F8#32 * z) * (num 0x40A00000#32 * (z * z) - num 0x40400000#32)
  | ⟨13, _⟩ => (num 0x3EEA01E8#32 * x) * (num 0x3F800000#32 - num 0x40A00000#32 * (z * z))
  | ⟨14, _⟩ => (num 0x3FB8FFC7#32 * z) * (x * x - y * y)
  | ⟨15, _⟩ => (num 0x3F170D19#32 * x) * (-(x * x) + num 0x40400000#32 * (y * y))
  | ⟨_ + 16, h⟩ => absurd h (by omega)

/-- The same sixteen values with the last one's `−x²` spelt as a difference from the zero word,
    `0 − x²`: the form in which the kernel's body writes it. -/
def harmSub (k : Fin 16) (x y z : EReal) : EReal :=
  match k with
  | ⟨15, _⟩ => (num 0x3F170D19#32 * x) * ((num 0x00000000#32 - x * x) + num 0x40400000#32 * (y * y))
  | k => harm k x y z

/-- The zero word denotes zero, and `0 − a = −a` for every extended real `a`, the infinities
    included: the two spellings are one function. -/
theorem harmSub_eq (k : Fin 16) (x y z : EReal) : harmSub k x y z = harm k x y z := by
  unfold harmSub
  split
  · show (num 0x3F170D19#32 * x) * ((num 0x00000000#32 - x * x) + num 0x40400000#32 * (y * y))
      = (num 0x3F170D19#32 * x) * (-(x * x) + num 0x40400000#32 * (y * y))
    rw [show num 0x00000000#32 = 0 from Ideal.ofBits_zero_f32, zero_sub]
  · rfl

/-! ## The table of all directions -/

/-- The result both programs are compared with: for 4194304 directions, one per row of `d`, the
    4194304 × 16 table whose entry `(r, k)` is harmonic `k` of direction `r`. -/
def table (d : (⟨2, ![4194304, 3]⟩ : Shape).Idx → EReal) : (⟨2, ![4194304, 16]⟩ : Shape).Idx → EReal :=
  fun i => harm (i 1) (d (ix2 (i 0) (0 : Fin 3))) (d (ix2 (i 0) (1 : Fin 3))) (d (ix2 (i 0) (2 : Fin 3)))

/-- The same numbers laid out 128 to a row, eight consecutive directions side by side: row `R`,
    lane `l` holds entry `(8·R + l div 16, l mod 16)` of the table. -/
def packed (d : (⟨2, ![4194304, 3]⟩ : Shape).Idx → EReal) : (⟨2, ![524288, 128]⟩ : Shape).Idx → EReal :=
  fun j => table d (ix2
    (⟨(j 0).val * 8 + (j 1).val / 16, by have := idx2_lt0 j; have := idx2_lt1 j; omega⟩ : Fin 4194304)
    (⟨(j 1).val % 16, Nat.mod_lt _ (by decide)⟩ : Fin 16))

/-- Read in row-major order the two layouts are one sequence: position `16·r + k` of the table is
    position `128·R + l` of the packed array exactly when `r = 8·R + l div 16` and `k = l mod 16`.
    So reshaping the packed array to 4194304 × 16 gives the table. -/
theorem reshape_packed (d : (⟨2, ![4194304, 3]⟩ : Shape).Idx → EReal)
    (h : (⟨2, ![524288, 128]⟩ : Shape).ShapeCasts ⟨2, ![4194304, 16]⟩) :
    shapeCast ⟨2, ![4194304, 16]⟩ (packed d) h = table d := by
  funext i
  obtain ⟨r, k, rfl⟩ : ∃ (r : Fin 4194304) (k : Fin 16), i = ix2 r k := ⟨i 0, i 1, eq_ix2 i⟩
  have hr := r.isLt
  have hk := k.isLt
  refine (shapeCast_apply (packed d) h (ix2 r k)
    (ix2 (⟨(r.val * 16 + k.val) / 128, by omega⟩ : Fin 524288) (⟨(r.val * 16 + k.val) % 128, by omega⟩ : Fin 128)) (by
      rw [Shape.rowMajor_val_two, Shape.rowMajor_val_two]
      show (r.val * 16 + k.val) / 128 * 128 + (r.val * 16 + k.val) % 128 = r.val * 16 + k.val
      omega)).trans ?_
  unfold packed
  exact congrArg (table d) (funext fun a => Fin.ext (by
    match a with
    | ⟨0, _⟩ => show (r.val * 16 + k.val) / 128 * 8 + (r.val * 16 + k.val) % 128 / 16 = r.val; omega
    | ⟨1, _⟩ => show (r.val * 16 + k.val) % 128 % 16 = k.val; omega))

end Cert.Basis

end
-- ==== Proof.Body.lean ====
/-
  What one run of the kernel body leaves in its output block, read at an index.

  The body reads the three rows of its 3 × 65536 input block — the x, y and z coordinates of 65536
  directions, one direction per lane —, forms the sixteen harmonics lane by lane, stacks them as a
  16 × 65536 array V (row k is harmonic k), and repacks it as 8192 × 128: split the lane axis as
  8192 × 8, move the harmonic axis last, and merge the last two axes.  So the entry in row m and
  lane l of the block is V (l mod 16, 8·m + l div 16): harmonic l mod 16 of direction 8·m + l div 16
  of the block.  Each row holds eight consecutive directions, sixteen values apiece.
-/
import proofs.«179293_j1047972021050_2_alg».proof.Proof.Gen.KernelIdeal.Frame
import proofs.«179293_j1047972021050_2_alg».proof.Proof.Basis
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Cert.Basis
open Idealize.ShloMosaic Idealize.ShloMosaic.ValueIdx

/-! ## The three coordinate rows -/

/-- Row `c` of the input block, loaded and flattened, reads the block at `(c, q)`. -/
theorem rowX (x0 : Vec Ideal S3x65536 .f32) (q : Fin 65536) :
    k0_pay2 (F := Ideal) (View.ld x0 r0_0) (ix1 q) = x0 (ix2 (0 : Fin 3) q) := by
  unfold k0_pay2
  rw [shapeCast_1a_a_apply]
  show x0 (r0_0.emb (ix2 (0 : Fin 1) q)) = x0 (ix2 (0 : Fin 3) q)
  exact congrArg x0 (funext fun a => Fin.ext (by
    match a with
    | ⟨0, _⟩ => show 0 + 1 * 0 = 0; omega
    | ⟨1, _⟩ => show 0 + 1 * q.val = q.val; omega))

theorem rowY (x0 : Vec Ideal S3x65536 .f32) (q : Fin 65536) :
    k0_pay3 (F := Ideal) (View.ld x0 r0_1) (ix1 q) = x0 (ix2 (1 : Fin 3) q) := by
  unfold k0_pay3
  rw [shapeCast_1a_a_apply]
  show x0 (r0_1.emb (ix2 (0 : Fin 1) q)) = x0 (ix2 (1 : Fin 3) q)
  exact congrArg x0 (funext fun a => Fin.ext (by
    match a with
    | ⟨0, _⟩ => show 1 + 1 * 0 = 1; omega
    | ⟨1, _⟩ => show 0 + 1 * q.val = q.val; omega))

theorem rowZ (x0 : Vec Ideal S3x65536 .f32) (q : Fin 65536) :
    k0_pay4 (F := Ideal) (View.ld x0 r0_2) (ix1 q) = x0 (ix2 (2 : Fin 3) q) := by
  unfold k0_pay4
  rw [shapeCast_1a_a_apply]
  show x0 (r0_2.emb (ix2 (0 : Fin 1) q)) = x0 (ix2 (2 : Fin 3) q)
  exact congrArg x0 (funext fun a => Fin.ext (by
    match a with
    | ⟨0, _⟩ => show 2 + 1 * 0 = 2; omega
    | ⟨1, _⟩ => show 0 + 1 * q.val = q.val; omega))

/-! ## The sixteen stacked rows -/

/-- Row `k` of the stack: harmonic `k` of every lane's direction, as a 1 × 65536 array. -/
def stackRow (x0 : Vec Ideal S3x65536 .f32) (k : Fin 16) : FVec Ideal S1x65536 .f32 :=
  shapeCast S1x65536 (fun i : S65536.Idx =>
    harmSub k (k0_pay2 (F := Ideal) (View.ld x0 r0_0) i) (k0_pay3 (F := Ideal) (View.ld x0 r0_1) i)
      (k0_pay4 (F := Ideal) (View.ld x0 r0_2) i)) Facts₀.shapeCasts_S65536_S1x65536

/-- At lane `q` it is harmonic `k` of the direction the block holds in column `q`. -/
theorem stackRow_apply (x0 : Vec Ideal S3x65536 .f32) (k : Fin 16) (u : Fin 1) (q : Fin 65536) :
    stackRow x0 k (ix2 u q)
      = harm k (x0 (ix2 (0 : Fin 3) q)) (x0 (ix2 (1 : Fin 3) q)) (x0 (ix2 (2 : Fin 3) q)) := by
  unfold stackRow
  rw [shapeCast_a_1a_apply, harmSub_eq, rowX, rowY, rowZ]

/-! ## The repacked block -/

/-- The zero offsets of a whole-buffer access, however spelt. -/
theorem zeroOff : (![0, 0] : Fin 2 → Nat) = fun _ => 0 := by
  funext a; match a with | ⟨0, _⟩ => rfl | ⟨1, _⟩ => rfl

/-- What the body stores is the repacking of the sixteen stacked rows. -/
theorem out_eq_pack (x0 : Vec Ideal S3x65536 .f32) :
    out0_1 (F := Ideal) x0
      = shapeCast S8192x128 (transpose S8192x8x16 [1, 2, 0] (shapeCast S16x8192x8
          (concatenate S16x65536 0 (List.ofFn fun k : Fin 16 => (⟨S1x65536, stackRow x0 k⟩ : (s : Shape) × (s.Idx → Ideal .f32)))
            Facts₀.concatenates_S1x65536_S1x65536_S1x65536_S1x65536_S1x65536_S1x65536_S1x65536_S1x65536_S1x65536_S1x65536_S1x65536_S1x65536_S1x65536_S1x65536_S1x65536_S1x65536_S16x65536_d0)
          Facts₀.shapeCasts_S16x65536_S16x8192x8) Facts₀.transposes_S16x8192x8_p1_2_0_S8192x8x16)
          Facts₀.shapeCasts_S8192x8x16_S8192x128 := by
  unfold out0_1
  rw [View.canon_unit_zero zeroOff]
  rfl

/-- Row `m`, lane `l` of the block the body leaves: harmonic `l mod 16` of the direction in column
    `8·m + l div 16` of the input block. -/
theorem out_apply (x0 : Vec Ideal S3x65536 .f32) (mm : Fin 8192) (l : Fin 128) :
    out0_1 (F := Ideal) x0 (ix2 mm l)
      = harm ⟨l.val % 16, Nat.mod_lt _ (by decide)⟩
          (x0 (ix2 (0 : Fin 3) ⟨mm.val * 8 + l.val / 16, by have := mm.isLt; have := l.isLt; omega⟩))
          (x0 (ix2 (1 : Fin 3) ⟨mm.val * 8 + l.val / 16, by have := mm.isLt; have := l.isLt; omega⟩))
          (x0 (ix2 (2 : Fin 3) ⟨mm.val * 8 + l.val / 16, by have := mm.isLt; have := l.isLt; omega⟩)) := by
  have hm := mm.isLt
  have hl := l.isLt
  rw [out_eq_pack]
  -- the merged lane axis split as 8 × 16
  refine (shapeCast_apply _ Facts₀.shapeCasts_S8192x8x16_S8192x128 (ix2 mm l)
    (ix3 mm (⟨l.val / 16, by omega⟩ : Fin 8) (⟨l.val % 16, by omega⟩ : Fin 16)) (by
      rw [Shape.rowMajor_val_three, Shape.rowMajor_val_two]
      show (mm.val * 8 + l.val / 16) * 16 + l.val % 16 = mm.val * 128 + l.val
      omega)).trans ?_
  -- the harmonic axis moved back to the front
  refine (transpose_apply [1, 2, 0] _ Facts₀.transposes_S16x8192x8_p1_2_0_S8192x8x16
    (ix3 mm (⟨l.val / 16, by omega⟩ : Fin 8) (⟨l.val % 16, by omega⟩ : Fin 16))
    (ix3 (⟨l.val % 16, by omega⟩ : Fin 16) mm (⟨l.val / 16, by omega⟩ : Fin 8))
    (fun b => match b with | ⟨0, _⟩ => rfl | ⟨1, _⟩ => rfl | ⟨2, _⟩ => rfl)).trans ?_
  -- the lane axis merged again
  refine (shapeCast_apply _ Facts₀.shapeCasts_S16x65536_S16x8192x8
    (ix3 (⟨l.val % 16, by omega⟩ : Fin 16) mm (⟨l.val / 16, by omega⟩ : Fin 8))
    (ix2 (⟨l.val % 16, by omega⟩ : Fin 16) (⟨mm.val * 8 + l.val / 16, by omega⟩ : Fin 65536)) (by
      rw [Shape.rowMajor_val_three, Shape.rowMajor_val_two]
      show (l.val % 16) * 65536 + (mm.val * 8 + l.val / 16) = ((l.val % 16) * 8192 + mm.val) * 8 + l.val / 16
      omega)).trans ?_
  -- row `l mod 16` of the stack
  refine (concatenate_ofFn_unit_apply (t := S16x65536) (s₁ := S1x65536) (0 : Fin 2) (stackRow x0) _ rfl rfl
    (ix2 (⟨l.val % 16, by omega⟩ : Fin 16) (⟨mm.val * 8 + l.val / 16, by omega⟩ : Fin 65536))
    (⟨l.val % 16, by omega⟩ : Fin 16) rfl
    (ix2 (0 : Fin 1) (⟨mm.val * 8 + l.val / 16, by omega⟩ : Fin 65536))
    (fun b hb => match b with
      | ⟨0, _⟩ => absurd rfl hb
      | ⟨1, _⟩ => rfl)).trans ?_
  exact stackRow_apply x0 _ _ _

end Cert.KernelIdeal.Body

end
-- ==== Proof.Packed.lean ====
/-
  The kernel's result array is the table of harmonics.

  Before the region the host transposes the 4194304 × 3 array of directions to 3 × 4194304, so that
  block `t` of the input window — all three rows, columns 65536·t … 65536·t + 65535 — holds in
  column `q` the coordinates of direction 65536·t + q.  The body turns it into the 8192 × 128 block
  whose row `m`, lane `l` is harmonic `l mod 16` of the block's direction `8·m + l div 16`, and
  the pipeline writes that back as rows 8192·t … 8192·t + 8191 of the 524288 × 128 output array.  The
  64 blocks tile the array, so its row `R`, lane `l` ends as harmonic `l mod 16` of direction
  `8·R + l div 16`: the packed table.  After the region the host reshapes it to 4194304 × 16, which
  is the table itself.
-/
import proofs.«179293_j1047972021050_2_alg».proof.Proof.Body
import Idealize.ShloMosaic.Lib.StableHlo.Run

set_option maxRecDepth 16384

noncomputable section

namespace Cert.KernelIdeal.Packed

open Cert.KernelIdeal Cert.KernelIdeal.Gen Cert.KernelIdeal.Body Cert.Basis
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The grid's index maps -/

/-- At point `t` the input window is at block `(0, t)` and the output window at block `(t, 0)`. -/
theorem index_facts : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, _)

/-! ## The input window's array and blocks -/

/-- The array the input window stages is the transposed array of directions. -/
theorem V_transposed (c : Dev nD) :
    (V m c main_v0 : S3x4194304.Idx → EReal)
      = transpose S3x4194304 [1, 0] (m ((c : Thread nD τ).loc main_arg0) : S4194304x3.Idx → EReal)
          Facts₀.transposes_S4194304x3_S3x4194304_1_0 := by
  show StableHlo.after hostOps0 (fun b => m (c, b)) (Proc.devRef .tc main_v0) = _
  after_results

/-- Column `q` of block `t` holds the coordinates of direction `65536·t + q`. -/
theorem iblk_apply (c : Dev nD) (t : Fin cfg0.N) (cc : Fin 3) (q : Fin 65536) (r : Fin 4194304)
    (hr : r.val = t.val * 65536 + q.val) :
    (iblk m c 0 t : Vec Ideal S3x65536 .f32) (ix2 cc q)
      = (m ((c : Thread nD τ).loc main_arg0) : S4194304x3.Idx → EReal) (ix2 r cc) := by
  obtain ⟨e0, e1, -, -⟩ := index_facts t
  unfold iblk
  rw [View.read_apply]
  show (V m c main_v0 : S3x4194304.Idx → EReal) (((cfg0.win 0).blk t).view.emb (ix2 cc q)) = _
  rw [V_transposed]
  refine transpose_apply [1, 0] _ Facts₀.transposes_S4194304x3_S3x4194304_1_0 _ (ix2 r cc) (fun b => ?_)
  match b with
  | ⟨0, _⟩ => show cc.val = win0_0.index t (0 : Fin 2) * 3 + 1 * cc.val; rw [e0]; omega
  | ⟨1, _⟩ => show r.val = win0_0.index t (1 : Fin 2) * 65536 + 1 * q.val; rw [e1, hr]; omega

/-! ## What each point writes back -/

/-- A body run on a block whose column `q` holds direction `65536·T + q` of `d` leaves, at the block
    index that the output array's index `i` has inside block `T`, the packed table's entry `i`. -/
theorem block_apply (x0 : Vec Ideal S3x65536 .f32) (d : S4194304x3.Idx → EReal) (T : Nat)
    (hx : ∀ (cc : Fin 3) (q : Fin 65536) (r : Fin 4194304), r.val = T * 65536 + q.val → x0 (ix2 cc q) = d (ix2 r cc))
    (y : S8192x128.Idx) (i : S524288x128.Idx)
    (h0 : (i 0).val = T * 8192 + (y 0).val) (h1 : (i 1).val = (y 1).val) :
    out0_1 (F := Ideal) x0 y = packed d i := by
  obtain ⟨mm, l, rfl⟩ : ∃ (mm : Fin 8192) (l : Fin 128), y = ix2 mm l := ⟨y 0, y 1, eq_ix2 y⟩
  have hm := mm.isLt
  have hl := l.isLt
  have hi0 := idx2_lt0 i
  have hi1 := idx2_lt1 i
  have h0' : (i 0).val = T * 8192 + mm.val := h0
  have h1' : (i 1).val = l.val := h1
  have hr : (i 0).val * 8 + (i 1).val / 16 = T * 65536 + (mm.val * 8 + l.val / 16) := by omega
  have hk : (⟨l.val % 16, Nat.mod_lt _ (by decide)⟩ : Fin 16) = ⟨(i 1).val % 16, Nat.mod_lt _ (by decide)⟩ :=
    Fin.ext (by show l.val % 16 = (i 1).val % 16; rw [h1'])
  rw [out_apply,
    hx 0 _ (⟨(i 0).val * 8 + (i 1).val / 16, by omega⟩ : Fin 4194304) hr,
    hx 1 _ (⟨(i 0).val * 8 + (i 1).val / 16, by omega⟩ : Fin 4194304) hr,
    hx 2 _ (⟨(i 0).val * 8 + (i 1).val / 16, by omega⟩ : Fin 4194304) hr, hk]
  rfl

/-- Point `t` writes back block `t` of the packed table of the directions. -/
theorem flushed_eq (c : Dev nD) (t : Fin cfg0.N) :
    (dats m 0 c).flushed 1 t
      = ((cfg0.win 1).blk t).view.read (Elt Ideal) (packed (m ((c : Thread nD τ).loc main_arg0))) := by
  obtain ⟨-, -, e2, e3⟩ := index_facts t
  show (cfg0.win 1).cut (grid0.coords t) ((dats m 0 c).after 1 t) = _
  rw [after0_1]
  funext j
  show out0_1 (F := Ideal) (iblk m c 0 t) j
    = packed (m ((c : Thread nD τ).loc main_arg0)) (((cfg0.win 1).blk t).view.emb j)
  exact block_apply (iblk m c 0 t) (m ((c : Thread nD τ).loc main_arg0)) t.val
    (fun cc q r hr => iblk_apply m c t cc q r hr) j (((cfg0.win 1).blk t).view.emb j)
    (by show win0_1.index t (0 : Fin 2) * 8192 + 1 * (j 0).val = t.val * 8192 + (j 0).val; rw [e2]; omega)
    (by show win0_1.index t (1 : Fin 2) * 128 + 1 * (j 1).val = (j 1).val; rw [e3]; omega)

/-! ## The blocks tile the array -/

/-- An index of the output array is in point `t`'s block iff each coordinate is in the block's range. -/
theorem mem_blk (t : Fin cfg0.N) (i : S524288x128.Idx) :
    i ∈ ((cfg0.win 1).blk t).view.set ↔ ∀ a : Fin 2, win0_1.index t a * S8192x128.size a ≤ (i a).val
      ∧ (i a).val < win0_1.index t a * S8192x128.size a + S8192x128.size a := by
  show i ∈ ((View.whole main_v1).slice (win0_1.rect t)).set ↔ _
  rw [View.set_slice_whole, Rect.mem_set_unit]
  exact Iff.rfl

/-- Row `R` of the output array lies in the block of point `R div 8192`. -/
theorem cover (i : S524288x128.Idx) :
    ∃ t : Fin cfg0.N, (cfg0.win 1).flush t = true ∧ i ∈ ((cfg0.win 1).blk t).view.set := by
  have hi0 : (i 0).val < 524288 := (i 0).isLt
  have hi1 : (i 1).val < 128 := (i 1).isLt
  have hN : cfg0.N = 64 := N_0
  have ht : (i 0).val / 8192 < cfg0.N := by rw [hN]; omega
  obtain ⟨-, -, e2, e3⟩ := index_facts ⟨(i 0).val / 8192, ht⟩
  refine ⟨⟨(i 0).val / 8192, ht⟩, flush0_1 _, ?_⟩
  rw [mem_blk]
  intro a
  match a with
  | ⟨0, _⟩ =>
    show win0_1.index ⟨(i 0).val / 8192, ht⟩ (0 : Fin 2) * 8192 ≤ (i 0).val
      ∧ (i 0).val < win0_1.index ⟨(i 0).val / 8192, ht⟩ (0 : Fin 2) * 8192 + 8192
    rw [e2]; show (i 0).val / 8192 * 8192 ≤ (i 0).val ∧ (i 0).val < (i 0).val / 8192 * 8192 + 8192; omega
  | ⟨1, _⟩ =>
    show win0_1.index ⟨(i 0).val / 8192, ht⟩ (1 : Fin 2) * 128 ≤ (i 1).val
      ∧ (i 1).val < win0_1.index ⟨(i 0).val / 8192, ht⟩ (1 : Fin 2) * 128 + 128
    rw [e3]; omega

/-- So after the last point the output array is the packed table. -/
theorem final (c : Dev nD) :
    (dats m 0 c).arrAt 1 cfg0.N = packed (m ((c : Thread nD τ).loc main_arg0)) :=
  (dats m 0 c).arrAt_eq_of_cover 1 (packed (m ((c : Thread nD τ).loc main_arg0)))
    (fun t _ => flushed_eq m c t) cover

/-! ## The reshape after the region, and the run -/

/-- The result buffer after the host's reshape of the output array is the table of the directions. -/
theorem tail_eq (c : Dev nD) :
    (Pipeline.afterTail₀ cfgs (dats m) 0 (V0 m) [hostOps1] c main_v2 : S4194304x16.Idx → EReal)
      = table (m ((c : Thread nD τ).loc main_arg0)) := by
  unfold Pipeline.afterTail₀
  show StableHlo.after hostOps1 _ (Proc.devRef .tc main_v2) = _
  after_results
  rw [show Pipeline.withArrays spec0 c (V0 m c) (fun w => (dats m 0 c).arrAt w cfg0.N) (Proc.devRef .tc main_v1)
      = packed (m ((c : Thread nD τ).loc main_arg0)) from
    (Pipeline.withArrays_arr spec0 launch0.win.arr_inj c _ _ 1).trans (final m c)]
  exact reshape_packed _ _

/-- Every weakly fair execution of the idealized kernel terminates with the result buffer at the
    table of harmonics of the directions, and the directions unchanged. -/
theorem run : θ_run defs (onTc (τ := τ) (main (F := Ideal))) ⟨m, fun _ => 0, ρ⟩ fun r => ∀ c : Dev nD,
      r.2.mem ((c : Thread nD τ).loc main_v2) = table (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Packed

end
-- ==== Proof.RefTable.lean ====
/-
  The reference's result is the table of harmonics.

  The reference slices the three coordinate columns out of the 4194304 × 3 array of directions,
  forms the sixteen harmonics as sixteen vectors of length 4194304 with the same products, sums and
  coefficient words as the definition of `harm` (its `−x²` a negation), turns each into a column and
  joins the sixteen columns side by side.  So entry `(r, k)` of its result is column `k` at row `r`:
  harmonic `k` of direction `r`.
-/
import proofs.«179293_j1047972021050_2_alg».proof.Proof.Gen.ReferenceIdeal.Read
import proofs.«179293_j1047972021050_2_alg».proof.Proof.Basis
import Idealize.ShloMosaic.Lib.Pipeline.Value
import Idealize.ShloMosaic.Lib.ValueIdx

noncomputable section

namespace Cert.ReferenceIdeal.Table

open Cert.ReferenceIdeal Cert.ReferenceIdeal.Gen Cert.ReferenceIdeal.Read Cert.Basis
open Idealize.ShloMosaic Idealize.ShloMosaic.ValueIdx

/-! ## The three coordinate columns -/

/-- The first sliced column, flattened, reads the array of directions at `(r, 0)`. -/
theorem colX (x0 : (⟨S4194304x3, .f32⟩ : BufTy).Contents (Elt Ideal)) (r : Fin 4194304) :
    val_main_v1 (F := Ideal) x0 (ix1 r) = x0 (ix2 r (0 : Fin 3)) := by
  rw [val_main_v1_apply, val_main_v0_apply]
  exact congrArg x0 (funext fun a => Fin.ext (by
    match a with
    | ⟨0, _⟩ => show r.val / 1 = r.val; omega
    | ⟨1, _⟩ => rfl))

/-- The second at `(r, 1)`. -/
theorem colY (x0 : (⟨S4194304x3, .f32⟩ : BufTy).Contents (Elt Ideal)) (r : Fin 4194304) :
    val_main_v3 (F := Ideal) x0 (ix1 r) = x0 (ix2 r (1 : Fin 3)) := by
  rw [val_main_v3_apply, val_main_v2_apply]
  exact congrArg x0 (funext fun a => Fin.ext (by
    match a with
    | ⟨0, _⟩ => show r.val / 1 = r.val; omega
    | ⟨1, _⟩ => rfl))

/-- The third at `(r, 2)`. -/
theorem colZ (x0 : (⟨S4194304x3, .f32⟩ : BufTy).Contents (Elt Ideal)) (r : Fin 4194304) :
    val_main_v5 (F := Ideal) x0 (ix1 r) = x0 (ix2 r (2 : Fin 3)) := by
  rw [val_main_v5_apply, val_main_v4_apply]
  exact congrArg x0 (funext fun a => Fin.ext (by
    match a with
    | ⟨0, _⟩ => show r.val / 1 = r.val; omega
    | ⟨1, _⟩ => rfl))

/-! ## The sixteen columns -/

/-- Column `k`: harmonic `k` of every direction, as a 4194304 × 1 array. -/
def column (x0 : (⟨S4194304x3, .f32⟩ : BufTy).Contents (Elt Ideal)) (k : Fin 16) : FVec Ideal S4194304x1 .f32 :=
  broadcastInDim S4194304x1 ![0] Facts₀.bcast_S4194304_S4194304x1_0 (fun i : S4194304.Idx =>
    harm k (val_main_v1 (F := Ideal) x0 i) (val_main_v3 (F := Ideal) x0 i) (val_main_v5 (F := Ideal) x0 i))

/-- The reference's last value is the sixteen columns joined side by side: each of its operands is
    the column of that number, operation for operation. -/
theorem val_eq_columns (x0 : (⟨S4194304x3, .f32⟩ : BufTy).Contents (Elt Ideal)) :
    val_main_v89 (F := Ideal) x0
      = concatenate S4194304x16 1 (List.ofFn fun k : Fin 16 => (⟨S4194304x1, column x0 k⟩ : (s : Shape) × (s.Idx → Ideal .f32)))
          Facts₀.concatenates_S4194304x1_S4194304x1_S4194304x1_S4194304x1_S4194304x1_S4194304x1_S4194304x1_S4194304x1_S4194304x1_S4194304x1_S4194304x1_S4194304x1_S4194304x1_S4194304x1_S4194304x1_S4194304x1_S4194304x16_d1 := rfl

/-- Entry `(r, k)` of the reference's result is harmonic `k` of direction `r`. -/
theorem val_eq_table (x0 : (⟨S4194304x3, .f32⟩ : BufTy).Contents (Elt Ideal)) :
    val_main_v89 (F := Ideal) x0 = table x0 := by
  funext i
  obtain ⟨r, k, rfl⟩ : ∃ (r : Fin 4194304) (k : Fin 16), i = ix2 r k := ⟨i 0, i 1, eq_ix2 i⟩
  rw [val_eq_columns]
  refine (concatenate_ofFn_unit_apply (t := S4194304x16) (s₁ := S4194304x1) (1 : Fin 2) (column x0) _ rfl rfl
    (ix2 r k) k rfl (ix2 r (0 : Fin 1))
    (fun b hb => match b with
      | ⟨0, _⟩ => rfl
      | ⟨1, _⟩ => absurd rfl hb)).trans ?_
  unfold column
  refine (broadcastInDim_apply ![0] Facts₀.bcast_S4194304_S4194304x1_0 _ (ix2 r (0 : Fin 1)) (ix1 r)
    (fun a => match a with | ⟨0, _⟩ => rfl)).trans ?_
  show harm k (val_main_v1 (F := Ideal) x0 (ix1 r)) (val_main_v3 (F := Ideal) x0 (ix1 r)) (val_main_v5 (F := Ideal) x0 (ix1 r))
    = table x0 (ix2 r k)
  rw [colX, colY, colZ]
  rfl

end Cert.ReferenceIdeal.Table

end
-- ==== Proof.lean ====
/-
  The kernel evaluates, for each of 4194304 directions (x, y, z), the sixteen real spherical
  harmonics of degree below four — fixed polynomials of x, y, z with single-precision coefficients —
  and returns them as a 4194304 × 16 table; the reference does the same with array operations.

  Both programs spell every harmonic with the same products, sums and coefficient words, grouped the
  same way, except that the kernel writes `−x²` as `0 − x²`; on the extended reals `0 − a = −a` for
  every `a`, the infinities included, so the two agree at every input and the hypothesis that the
  inputs are finite is never used.  What differs is the layout.  The kernel works on the transposed
  array, 65536 directions per grid point with one direction per lane, stacks the sixteen harmonics as
  a 16 × 65536 array and repacks it so that each row of its 8192 × 128 output block holds eight
  consecutive directions, sixteen values apiece; the 64 blocks tile a 524288 × 128 array which the
  host then reshapes to 4194304 × 16.  Row-major position `16·r + k` of the table is position
  `128·R + l` of the packed array exactly when `r = 8·R + l div 16` and `k = l mod 16`, which is where
  the body puts harmonic `k` of direction `r`.

  `Proof/Basis.lean` fixes the sixteen polynomials, the table, its packing and the reshape law;
  `Proof/Body.lean` reads the body's block at an index; `Proof/Packed.lean` reads the input blocks
  through the host's transposition, shows the blocks tile the output array, and carries the result
  through the reshape to the kernel's run; `Proof/RefTable.lean` reads the reference's result at an
  index.  The frames are the generated frame runs and the reference's generated run; the idealized
  kernel is the printed kernel read at the extended reals with nothing rewritten.
-/
import proofs.«179293_j1047972021050_2_alg».proof.Defs
import proofs.«179293_j1047972021050_2_alg».proof.Proof.Gen.Kernel
import proofs.«179293_j1047972021050_2_alg».proof.Proof.Gen.Kernel.Skeleton
import proofs.«179293_j1047972021050_2_alg».proof.Proof.Gen.Kernel.Launch
import proofs.«179293_j1047972021050_2_alg».proof.Proof.Gen.Kernel.Points
import proofs.«179293_j1047972021050_2_alg».proof.Proof.Gen.Kernel.Frame
import proofs.«179293_j1047972021050_2_alg».proof.Proof.Gen.KernelIdeal
import proofs.«179293_j1047972021050_2_alg».proof.Proof.Gen.KernelIdeal.Skeleton
import proofs.«179293_j1047972021050_2_alg».proof.Proof.Gen.KernelIdeal.Launch
import proofs.«179293_j1047972021050_2_alg».proof.Proof.Gen.KernelIdeal.Points
import proofs.«179293_j1047972021050_2_alg».proof.Proof.Gen.KernelIdeal.Frame
import proofs.«179293_j1047972021050_2_alg».proof.Proof.Gen.ReferenceIdeal
import proofs.«179293_j1047972021050_2_alg».proof.Proof.Gen.ReferenceIdeal.Run
import proofs.«179293_j1047972021050_2_alg».proof.Proof.Gen.ReferenceIdeal.Read
import proofs.«179293_j1047972021050_2_alg».proof.Proof.Gen.Pre_finite_inputs
import proofs.«179293_j1047972021050_2_alg».proof.Proof.Packed
import proofs.«179293_j1047972021050_2_alg».proof.Proof.RefTable
import Idealize.ShloMosaic.Adequacy
import Idealize.ShloMosaic.Init

noncomputable section

namespace Cert.Proof

open Idealize.ShloMosaic Idealize.ShloMosaic.TcCoe Idealize.SL.Sem

/-- The printed kernel runs and leaves its argument unchanged: its generated frame run. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its argument unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the directions both programs end with the table of harmonics of the
    directions: the kernel by `Packed.run`, the reference by its generated run read at an index. -/
theorem algebraic : Cert.algebraic_KernelIdeal_ReferenceIdeal := by
  intro m ρ m' ρ' _ hagree
  refine ⟨fun c => Cert.Basis.table (m ((c.tc : Thread Cert.KernelIdeal.nD Cert.KernelIdeal.τ).loc Cert.KernelIdeal.main_arg0)),
    Cert.KernelIdeal.Packed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, Cert.ReferenceIdeal.Table.val_eq_table, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
